-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v10_0)) (v1 : (c : Dev Cert.KernelIdeal.nD) → Buf (Elt Ideal) ((c.tc : Thread Cert.KernelIdeal.nD Cert.KernelIdeal.τ).loc Cert.KernelIdeal.main_v10_1)) (v2 : (c : Dev Cert.KernelIdeal.nD) → Buf (Elt Ideal) ((c.tc : Thread Cert.KernelIdeal.nD Cert.KernelIdeal.τ).loc Cert.KernelIdeal.main_v10_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10_0) = v0 c
          ∧ r.2.mem ((c.tc : Thread Cert.KernelIdeal.nD Cert.KernelIdeal.τ).loc Cert.KernelIdeal.main_v10_1) = v1 c
          ∧ r.2.mem ((c.tc : Thread Cert.KernelIdeal.nD Cert.KernelIdeal.τ).loc Cert.KernelIdeal.main_v10_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v35) = v0 c
          ∧ r.2.mem ((c.tc : Thread Cert.ReferenceIdeal.nD Cert.ReferenceIdeal.τ).loc Cert.ReferenceIdeal.main_v38) = v1 c
          ∧ r.2.mem ((c.tc : Thread Cert.ReferenceIdeal.nD Cert.ReferenceIdeal.τ).loc Cert.ReferenceIdeal.main_v40) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x1024 : Shape := ⟨2, ![16384, 1024]⟩
abbrev S4x1024x1024 : Shape := ⟨3, ![4, 1024, 1024]⟩
abbrev S4x1024 : Shape := ⟨2, ![4, 1024]⟩
abbrev S_ : Shape := ⟨0, ![]⟩

class Facts : Prop where
  bcast_S_S16384x1024 : S_.BroadcastsInDim S16384x1024 (![] : Fin 0 → Fin S16384x1024.rank)
  reducesTo_S16384x1024_S_d0_1 : S16384x1024.ReducesTo [0, 1] S_
  h_S_ : 0 < S_.numel
  bcast_S_S4x1024x1024 : S_.BroadcastsInDim S4x1024x1024 (![] : Fin 0 → Fin S4x1024x1024.rank)
  reducesTo_S4x1024x1024_S_d0_1_2 : S4x1024x1024.ReducesTo [0, 1, 2] S_
  bcast_S_S4x1024 : S_.BroadcastsInDim S4x1024 (![] : Fin 0 → Fin S4x1024.rank)
  reducesTo_S4x1024_S_d0_1 : S4x1024.ReducesTo [0, 1] S_

variable [Facts]

def fn_part1 {F : FTy → Type} [FloatOps F] (main_arg4 : FVec F S4x1024 .f32) (main_arg5 : FVec F S4x1024x1024 .f32) (main_arg6 : FVec F S4x1024 .f32) (main_v13 : IVec S_ 1) (main_v16 : IVec S4x1024x1024 1) : IVec S_ 1 :=
  let main_c_5 : IVec S_ 1 := constantI S_ 1 1#1
  let main_v17 : IVec S_ 1 := (fun x v => Host.reduce IntOp.andi x v reducesTo_S4x1024x1024_S_d0_1_2 h_S_) main_v16 main_c_5
  let main_v18 : IVec S_ 1 := andi main_v13 main_v17
  let main_v19 : FVec F S4x1024 .f32 := Host.absf main_arg4
  let main_cst_6 : FVec F S_ .f32 := constant S_ .f32 0x7F800000#32
  let main_v20 : FVec F S4x1024 .f32 := broadcastInDim S4x1024 ![] bcast_S_S4x1024 main_cst_6
  let main_v21 : IVec S4x1024 1 := cmpf .olt main_v19 main_v20
  let main_c_7 : IVec S_ 1 := constantI S_ 1 1#1
  let main_v22 : IVec S_ 1 := (fun x v => Host.reduce IntOp.andi x v reducesTo_S4x1024_S_d0_1 h_S_) main_v21 main_c_7
  let main_v23 : IVec S_ 1 := andi main_v18 main_v22
  let main_v24 : FVec F S4x1024x1024 .f32 := Host.absf main_arg5
  let main_cst_8 : FVec F S_ .f32 := constant S_ .f32 0x7F800000#32
  let main_v25 : FVec F S4x1024x1024 .f32 := broadcastInDim S4x1024x1024 ![] bcast_S_S4x1024x1024 main_cst_8
  let main_v26 : IVec S4x1024x1024 1 := cmpf .olt main_v24 main_v25
  let main_c_9 : IVec S_ 1 := constantI S_ 1 1#1
  let main_v27 : IVec S_ 1 := (fun x v => Host.reduce IntOp.andi x v reducesTo_S4x1024x1024_S_d0_1_2 h_S_) main_v26 main_c_9
  let main_v28 : IVec S_ 1 := andi main_v23 main_v27
  let main_v29 : FVec F S4x1024 .f32 := Host.absf main_arg6
  let main_cst_10 : FVec F S_ .f32 := constant S_ .f32 0x7F800000#32
  let main_v30 : FVec F S4x1024 .f32 := broadcastInDim S4x1024 ![] bcast_S_S4x1024 main_cst_10
  let main_v31 : IVec S4x1024 1 := cmpf .olt main_v29 main_v30
  let main_c_11 : IVec S_ 1 := constantI S_ 1 1#1
  let main_v32 : IVec S_ 1 := (fun x v => Host.reduce IntOp.andi x v reducesTo_S4x1024_S_d0_1 h_S_) main_v31 main_c_11
  let main_v33 : IVec S_ 1 := andi main_v28 main_v32
  main_v33

def fn {F : FTy → Type} [FloatOps F] (main_arg0 : FVec F S16384x1024 .f32) (main_arg1 : FVec F S16384x1024 .f32) (main_arg2 : FVec F S16384x1024 .f32) (main_arg3 : FVec F S4x1024x1024 .f32) (main_arg4 : FVec F S4x1024 .f32) (main_arg5 : FVec F S4x1024x1024 .f32) (main_arg6 : FVec F S4x1024 .f32) : IVec S_ 1 :=
  let main_v0 : FVec F S16384x1024 .f32 := Host.absf main_arg0
  let main_cst : FVec F S_ .f32 := constant S_ .f32 0x7F800000#32
  let main_v1 : FVec F S16384x1024 .f32 := broadcastInDim S16384x1024 ![] bcast_S_S16384x1024 main_cst
  let main_v2 : IVec S16384x1024 1 := cmpf .olt main_v0 main_v1
  let main_c : IVec S_ 1 := constantI S_ 1 1#1
  let main_v3 : IVec S_ 1 := (fun x v => Host.reduce IntOp.andi x v reducesTo_S16384x1024_S_d0_1 h_S_) main_v2 main_c
  let main_v4 : FVec F S16384x1024 .f32 := Host.absf main_arg1
  let main_cst_0 : FVec F S_ .f32 := constant S_ .f32 0x7F800000#32
  let main_v5 : FVec F S16384x1024 .f32 := broadcastInDim S16384x1024 ![] bcast_S_S16384x1024 main_cst_0
  let main_v6 : IVec S16384x1024 1 := cmpf .olt main_v4 main_v5
  let main_c_1 : IVec S_ 1 := constantI S_ 1 1#1
  let main_v7 : IVec S_ 1 := (fun x v => Host.reduce IntOp.andi x v reducesTo_S16384x1024_S_d0_1 h_S_) main_v6 main_c_1
  let main_v8 : IVec S_ 1 := andi main_v3 main_v7
  let main_v9 : FVec F S16384x1024 .f32 := Host.absf main_arg2
  let main_cst_2 : FVec F S_ .f32 := constant S_ .f32 0x7F800000#32
  let main_v10 : FVec F S16384x1024 .f32 := broadcastInDim S16384x1024 ![] bcast_S_S16384x1024 main_cst_2
  let main_v11 : IVec S16384x1024 1 := cmpf .olt main_v9 main_v10
  let main_c_3 : IVec S_ 1 := constantI S_ 1 1#1
  let main_v12 : IVec S_ 1 := (fun x v => Host.reduce IntOp.andi x v reducesTo_S16384x1024_S_d0_1 h_S_) main_v11 main_c_3
  let main_v13 : IVec S_ 1 := andi main_v8 main_v12
  let main_v14 : FVec F S4x1024x1024 .f32 := Host.absf main_arg3
  let main_cst_4 : FVec F S_ .f32 := constant S_ .f32 0x7F800000#32
  let main_v15 : FVec F S4x1024x1024 .f32 := broadcastInDim S4x1024x1024 ![] bcast_S_S4x1024x1024 main_cst_4
  let main_v16 : IVec S4x1024x1024 1 := cmpf .olt main_v14 main_v15
  fn_part1 (F := F) main_arg4 main_arg5 main_arg6 main_v13 main_v16
-- ==== Kernel.lean ====
abbrev S16384x1024 : Shape := ⟨2, ![16384, 1024]⟩
abbrev S4x1024x1024 : Shape := ⟨3, ![4, 1024, 1024]⟩
abbrev S4x1024 : Shape := ⟨2, ![4, 1024]⟩
abbrev S4096x1024 : Shape := ⟨2, ![4096, 1024]⟩
abbrev S1024x4096 : Shape := ⟨2, ![1024, 4096]⟩
abbrev S4096 : Shape := ⟨1, ![4096]⟩
abbrev S1x4096 : Shape := ⟨2, ![1, 4096]⟩
abbrev S256x1024 : Shape := ⟨2, ![256, 1024]⟩
abbrev S256x4096 : Shape := ⟨2, ![256, 4096]⟩

abbrev nBuf : Space → Nat
  | .hbm => 20
  | .vmem => 15
  | .smem => 0
  | _ => 0

abbrev bufTy : (tb : Table) → Fin (tcTables nBuf tb) → BufTy
  | .hbm, ⟨0, _⟩ => ⟨S16384x1024, .f32⟩
  | .hbm, ⟨1, _⟩ => ⟨S16384x1024, .f32⟩
  | .hbm, ⟨2, _⟩ => ⟨S16384x1024, .f32⟩
  | .hbm, ⟨3, _⟩ => ⟨S4x1024x1024, .f32⟩
  | .hbm, ⟨4, _⟩ => ⟨S4x1024, .f32⟩
  | .hbm, ⟨5, _⟩ => ⟨S4x1024x1024, .f32⟩
  | .hbm, ⟨6, _⟩ => ⟨S4x1024, .f32⟩
  | .hbm, ⟨7, _⟩ => ⟨S4096x1024, .f32⟩
  | .hbm, ⟨8, _⟩ => ⟨S1024x4096, .f32⟩
  | .hbm, ⟨9, _⟩ => ⟨S1024x4096, .bf16⟩
  | .hbm, ⟨10, _⟩ => ⟨S4096x1024, .f32⟩
  | .hbm, ⟨11, _⟩ => ⟨S1024x4096, .f32⟩
  | .hbm, ⟨12, _⟩ => ⟨S1024x4096, .bf16⟩
  | .hbm, ⟨13, _⟩ => ⟨S4096, .f32⟩
  | .hbm, ⟨14, _⟩ => ⟨S4096, .f32⟩
  | .hbm, ⟨15, _⟩ => ⟨S4096, .f32⟩
  | .hbm, ⟨16, _⟩ => ⟨S1x4096, .f32⟩
  | .hbm, ⟨17, _⟩ => ⟨S16384x1024, .f32⟩
  | .hbm, ⟨18, _⟩ => ⟨S16384x1024, .f32⟩
  | .hbm, ⟨19, _⟩ => ⟨S16384x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S1024x4096, .bf16⟩
  | .local _ .vmem, ⟨7, _⟩ => ⟨S1024x4096, .bf16⟩
  | .local _ .vmem, ⟨8, _⟩ => ⟨S1x4096, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S256x1024, .f32⟩
  | .local _ .vmem, ⟨13, _⟩ => ⟨S256x1024, .f32⟩
  | .local _ .vmem, ⟨14, _⟩ => ⟨S256x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10_0 : Ref sig .tc := ⟨.hbm, 17, rfl⟩
abbrev main_v10_1 : Ref sig .tc := ⟨.hbm, 18, rfl⟩
abbrev main_v10_2 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x4096 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x4096 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x4096 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

class Facts₀ : Prop where
  shapeCasts_S4x1024x1024_S4096x1024 : S4x1024x1024.ShapeCasts S4096x1024
  transposes_S4096x1024_S1024x4096_1_0 : S4096x1024.Transposes [1, 0] S1024x4096
  bitsLt_bf16_f32 : FTy.bits .bf16 < FTy.bits .f32
  shapeCasts_S4x1024_S4096 : S4x1024.ShapeCasts S4096
  shapeCasts_S4096_S1x4096 : S4096.ShapeCasts S1x4096
  inb_S256x1024_S256x1024_0_0 : ∀ a, (![0, 0] : Fin 2 → Nat) a + S256x1024.size a ≤ S256x1024.size a
  h_S256x1024 : 0 < S256x1024.numel
  inb_S1024x4096_S1024x4096_0_0 : ∀ a, (![0, 0] : Fin 2 → Nat) a + S1024x4096.size a ≤ S1024x4096.size a
  h_S1024x4096 : 0 < S1024x4096.numel
  shapeCasts_S1024x4096_S1024x4096 : S1024x4096.ShapeCasts S1024x4096
  inb_S1x4096_S1x4096_0_0 : ∀ a, (![0, 0] : Fin 2 → Nat) a + S1x4096.size a ≤ S1x4096.size a
  h_S1x4096 : 0 < S1x4096.numel
  shapeCasts_S1x4096_S1x4096 : S1x4096.ShapeCasts S1x4096
  broadcasts_S1x4096_S256x4096 : S1x4096.Broadcasts S256x4096
  slices_S256x4096_o0_0_S256x1024 : S256x4096.Slices ![0, 0] S256x1024
  slices_S256x4096_o0_1024_S256x1024 : S256x4096.Slices ![0, 1024] S256x1024
  slices_S256x4096_o0_2048_S256x1024 : S256x4096.Slices ![0, 2048] S256x1024
  slices_S256x4096_o0_3072_S256x1024 : S256x4096.Slices ![0, 3072] S256x1024
  dot_S256x1024_S1024x4096_S256x4096_1_0_0_1_n_n_wf : DotDims.WF S256x1024 S1024x4096 S256x4096 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x1024.size a ≤ S16384x1024.size a
  hwx0_0 : ∀ i : grid0.Coords, EltTy.bits .f32 = 32 ∨ (Rect.block (s := S16384x1024) S256x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x1024.size a ≤ S16384x1024.size a
  hwx0_1 : ∀ i : grid0.Coords, EltTy.bits .f32 = 32 ∨ (Rect.block (s := S16384x1024) S256x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x1024.size a ≤ S16384x1024.size a
  hwx0_2 : ∀ i : grid0.Coords, EltTy.bits .f32 = 32 ∨ (Rect.block (s := S16384x1024) S256x1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024x4096.size a ≤ S1024x4096.size a
  hwx0_3 : ∀ i : grid0.Coords, EltTy.bits .bf16 = 32 ∨ (Rect.block (s := S1024x4096) S1024x4096.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1024x4096.size a ≤ S1024x4096.size a
  hwx0_4 : ∀ i : grid0.Coords, EltTy.bits .bf16 = 32 ∨ (Rect.block (s := S1024x4096) S1024x4096.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x4096.size a ≤ S1x4096.size a
  hwx0_5 : ∀ i : grid0.Coords, EltTy.bits .f32 = 32 ∨ (Rect.block (s := S1x4096) S1x4096.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S256x1024.size a ≤ S16384x1024.size a
  hwx0_6 : ∀ i : grid0.Coords, EltTy.bits .f32 = 32 ∨ (Rect.block (s := S16384x1024) S256x1024.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S256x1024.size a ≤ S16384x1024.size a
  hwx0_7 : ∀ i : grid0.Coords, EltTy.bits .f32 = 32 ∨ (Rect.block (s := S16384x1024) S256x1024.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S256x1024.size a ≤ S16384x1024.size a
  hwx0_8 : ∀ i : grid0.Coords, EltTy.bits .f32 = 32 ∨ (Rect.block (s := S16384x1024) S256x1024.size (cc0_transform_8 i) (hinb0_8 i)).WholeWords (EltTy.packing .f32)

variable [Facts₀]

def dot_S256x1024_S1024x4096_S256x4096_1_0_0_1_n_n : DotDims S256x1024 S1024x4096 S256x4096 where
  lhsContracting := [1]
  rhsContracting := [0]
  lhsNonContracting := [0]
  rhsNonContracting := [1]
  lhsBatch := []
  rhsBatch := []
  wf := dot_S256x1024_S1024x4096_S256x4096_1_0_0_1_n_n_wf

abbrev win0_0 : Pipeline.Window sig grid0 :=
  Pipeline.Window.ofSpec (Memref.whole main_arg0) S256x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S256x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S256x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v2) S1024x4096.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v5) S1024x4096.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v9) S1x4096.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v10_0) S256x1024.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v10_1) S256x1024.size cc0_transform_7 reads0_7 true false 2 stage0_7 sem0_7
    hrank0 hreads0_7 hinb0_7 nbuf0_7 (Memref.isWhole_whole _) hwx0_7 hstage0_7

abbrev win0_8 : Pipeline.Window sig grid0 :=
  Pipeline.Window.ofSpec (Memref.whole main_v10_2) S256x1024.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

class Facts : Prop extends Facts₀ where

variable [Facts]
-- ==== ReferenceIdeal.lean ====
abbrev S16384x1024 : Shape := ⟨2, ![16384, 1024]⟩
abbrev S4x1024x1024 : Shape := ⟨3, ![4, 1024, 1024]⟩
abbrev S4x1024 : Shape := ⟨2, ![4, 1024]⟩
abbrev S16384x4x1024 : Shape := ⟨3, ![16384, 4, 1024]⟩
abbrev S1x4x1024 : Shape := ⟨3, ![1, 4, 1024]⟩
abbrev S16384x1x1024 : Shape := ⟨3, ![16384, 1, 1024]⟩
abbrev S_ : Shape := ⟨0, ![]⟩

abbrev nBuf : Space → Nat
  | .hbm => 54
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384x1024, .f32⟩
  | .hbm, ⟨2, _⟩ => ⟨S16384x1024, .f32⟩
  | .hbm, ⟨3, _⟩ => ⟨S4x1024x1024, .f32⟩
  | .hbm, ⟨4, _⟩ => ⟨S4x1024, .f32⟩
  | .hbm, ⟨5, _⟩ => ⟨S4x1024x1024, .f32⟩
  | .hbm, ⟨6, _⟩ => ⟨S4x1024, .f32⟩
  | .hbm, ⟨7, _⟩ => ⟨S16384x4x1024, .f32⟩
  | .hbm, ⟨8, _⟩ => ⟨S16384x4x1024, .f32⟩
  | .hbm, ⟨9, _⟩ => ⟨S16384x4x1024, .f32⟩
  | .hbm, ⟨10, _⟩ => ⟨S1x4x1024, .f32⟩
  | .hbm, ⟨11, _⟩ => ⟨S16384x4x1024, .f32⟩
  | .hbm, ⟨12, _⟩ => ⟨S16384x4x1024, .f32⟩
  | .hbm, ⟨13, _⟩ => ⟨S1x4x1024, .f32⟩
  | .hbm, ⟨14, _⟩ => ⟨S16384x4x1024, .f32⟩
  | .hbm, ⟨15, _⟩ => ⟨S16384x4x1024, .f32⟩
  | .hbm, ⟨16, _⟩ => ⟨S16384x1x1024, .f32⟩
  | .hbm, ⟨17, _⟩ => ⟨S16384x1024, .f32⟩
  | .hbm, ⟨18, _⟩ => ⟨S16384x1024, .f32⟩
  | .hbm, ⟨19, _⟩ => ⟨S16384x1024, .f32⟩
  | .hbm, ⟨20, _⟩ => ⟨S_, .f32⟩
  | .hbm, ⟨21, _⟩ => ⟨S16384x1024, .f32⟩
  | .hbm, ⟨22, _⟩ => ⟨S16384x1024, .f32⟩
  | .hbm, ⟨23, _⟩ => ⟨S_, .f32⟩
  | .hbm, ⟨24, _⟩ => ⟨S16384x1024, .f32⟩
  | .hbm, ⟨25, _⟩ => ⟨S16384x1024, .f32⟩
  | .hbm, ⟨26, _⟩ => ⟨S16384x1x1024, .f32⟩
  | .hbm, ⟨27, _⟩ => ⟨S16384x1024, .f32⟩
  | .hbm, ⟨28, _⟩ => ⟨S16384x1024, .f32⟩
  | .hbm, ⟨29, _⟩ => ⟨S16384x1024, .f32⟩
  | .hbm, ⟨30, _⟩ => ⟨S_, .f32⟩
  | .hbm, ⟨31, _⟩ => ⟨S16384x1024, .f32⟩
  | .hbm, ⟨32, _⟩ => ⟨S16384x1024, .f32⟩
  | .hbm, ⟨33, _⟩ => ⟨S_, .f32⟩
  | .hbm, ⟨34, _⟩ => ⟨S16384x1024, .f32⟩
  | .hbm, ⟨35, _⟩ => ⟨S16384x1024, .f32⟩
  | .hbm, ⟨36, _⟩ => ⟨S16384x1x1024, .f32⟩
  | .hbm, ⟨37, _⟩ => ⟨S16384x1024, .f32⟩
  | .hbm, ⟨38, _⟩ => ⟨S16384x1024, .f32⟩
  | .hbm, ⟨39, _⟩ => ⟨S16384x1x1024, .f32⟩
  | .hbm, ⟨40, _⟩ => ⟨S16384x1024, .f32⟩
  | .hbm, ⟨41, _⟩ => ⟨S16384x1024, .f32⟩
  | .hbm, ⟨42, _⟩ => ⟨S16384x1024, .f32⟩
  | .hbm, ⟨43, _⟩ => ⟨S_, .f32⟩
  | .hbm, ⟨44, _⟩ => ⟨S16384x1024, .f32⟩
  | .hbm, ⟨45, _⟩ => ⟨S16384x1024, .f32⟩
  | .hbm, ⟨46, _⟩ => ⟨S_, .f32⟩
  | .hbm, ⟨47, _⟩ => ⟨S16384x1024, .f32⟩
  | .hbm, ⟨48, _⟩ => ⟨S16384x1024, .f32⟩
  | .hbm, ⟨49, _⟩ => ⟨S16384x1024, .f32⟩
  | .hbm, ⟨50, _⟩ => ⟨S16384x1024, .f32⟩
  | .hbm, ⟨51, _⟩ => ⟨S16384x1024, .f32⟩
  | .hbm, ⟨52, _⟩ => ⟨S16384x1024, .f32⟩
  | .hbm, ⟨53, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst : Ref sig .tc := ⟨.hbm, 20, rfl⟩
abbrev main_v13 : Ref sig .tc := ⟨.hbm, 21, rfl⟩
abbrev main_v14 : Ref sig .tc := ⟨.hbm, 22, rfl⟩
abbrev main_cst_0 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_1 : Ref sig .tc := ⟨.hbm, 30, rfl⟩
abbrev main_v21 : Ref sig .tc := ⟨.hbm, 31, rfl⟩
abbrev main_v22 : Ref sig .tc := ⟨.hbm, 32, rfl⟩
abbrev main_cst_2 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_cst_3 : Ref sig .tc := ⟨.hbm, 43, rfl⟩
abbrev main_v32 : Ref sig .tc := ⟨.hbm, 44, rfl⟩
abbrev main_v33 : Ref sig .tc := ⟨.hbm, 45, rfl⟩
abbrev main_cst_4 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩

abbrev nD : Nat := 1
abbrev τ : Topo := Topo.v7x

variable {F : FTy → Type} [FloatOps F]

class Facts₀ : Prop where
  bcast_S4x1024_S1x4x1024_1_2 : S4x1024.BroadcastsInDim S1x4x1024 (![1, 2] : Fin 2 → Fin S1x4x1024.rank)
  bcast_S1x4x1024_S16384x4x1024_0_1_2 : S1x4x1024.BroadcastsInDim S16384x4x1024 (![0, 1, 2] : Fin 3 → Fin S16384x4x1024.rank)
  slices_S16384x4x1024_S16384x1x1024_0_0_0 : S16384x4x1024.Slices ![0, 0, 0] S16384x1x1024
  shapeCasts_S16384x1x1024_S16384x1024 : S16384x1x1024.ShapeCasts S16384x1024
  bcast_S_S16384x1024 : S_.BroadcastsInDim S16384x1024 (![] : Fin 0 → Fin S16384x1024.rank)
  slices_S16384x4x1024_S16384x1x1024_0_1_0 : S16384x4x1024.Slices ![0, 1, 0] S16384x1x1024
  slices_S16384x4x1024_S16384x1x1024_0_2_0 : S16384x4x1024.Slices ![0, 2, 0] S16384x1x1024
  slices_S16384x4x1024_S16384x1x1024_0_3_0 : S16384x4x1024.Slices ![0, 3, 0] S16384x1x1024
  dot_S16384x1024_S4x1024x1024_S16384x4x1024_1_2_0_01_n_n_wf : DotDims.WF S16384x1024 S4x1024x1024 S16384x4x1024 [1] [2] [0] [0, 1] [] []

variable [Facts₀]

def dot_S16384x1024_S4x1024x1024_S16384x4x1024_1_2_0_01_n_n : DotDims S16384x1024 S4x1024x1024 S16384x4x1024 where
  lhsContracting := [1]
  rhsContracting := [2]
  lhsNonContracting := [0]
  rhsNonContracting := [0, 1]
  lhsBatch := []
  rhsBatch := []
  wf := dot_S16384x1024_S4x1024x1024_S16384x4x1024_1_2_0_01_n_n_wf

class Facts : Prop extends Facts₀ where

variable [Facts]
-- ==== Proof.LstmSpec.lean ====
/-
  The LSTM cell as one function of its seven argument arrays, element by element, over the extended reals.

  For a batch row `b`, a gate `g` (0 forget, 1 input, 2 candidate, 3 output) and a hidden unit `j`, the gate's
  pre-activation is

      gate b g j = (Σₖ x[b,k]·Wx[g,j,k] + Σₖ h[b,k]·Wh[g,j,k]) + (bx[g,j] + bh[g,j]),

  and the cell's three results at `(b, j)` are

      o      = σ(gate b 3 j)
      c_new  = σ(gate b 0 j)·c[b,j] + σ(gate b 1 j)·tanh(gate b 2 j)
      h_new  = o · tanh(c_new),

  with σ z = 1 / (1 + e^(−z)) the logistic function, read on the extended reals with the conventions of the ideal
  instance (σ ⊥ = 0, σ ⊤ = 1). Two small laws are kept here as well: the logistic function IS the quotient
  1 / (1 + e^(−z)) spelled with the bit pattern of 1.0, and the two biases may be added to the matrix products one after
  the other or as their sum (addition on the extended reals is associative, with no finiteness needed).
-/
import Idealize.ShloMosaic.PureOps.Ideal
import Idealize.ShloMosaic.PureOps.Ideal.Laws
import Idealize.ShloMosaic.Lib.ValueIdx
import Idealize.ShloMosaic.Lib.IdealHost

noncomputable section

namespace Cert.Lstm

open Idealize.ShloMosaic Idealize.ShloMosaic.ValueIdx

/-- A batch of activations: 16384 rows of 1024 features. -/
abbrev Act := (⟨2, ![16384, 1024]⟩ : Shape).Idx → EReal
/-- Four stacked 1024 × 1024 weight matrices, one per gate, indexed (gate, hidden unit, input feature). -/
abbrev Wts := (⟨3, ![4, 1024, 1024]⟩ : Shape).Idx → EReal
/-- Four stacked bias vectors, indexed (gate, hidden unit). -/
abbrev Bias := (⟨2, ![4, 1024]⟩ : Shape).Idx → EReal

/-- The pre-activation of gate `g` at hidden unit `j` for batch row `b`: the input's and the hidden state's matrix
    products, plus the sum of the two biases. -/
def gate (x h : Act) (Wx Wh : Wts) (bx bh : Bias) (b : Fin 16384) (g : Fin 4) (j : Fin 1024) : EReal :=
  ((∑ k : Fin 1024, x (ix2 b k) * Wx (ix3 g j k)) + ∑ k : Fin 1024, h (ix2 b k) * Wh (ix3 g j k))
    + (bx (ix2 g j) + bh (ix2 g j))

/-- The output gate: the logistic function of gate 3. -/
def outGate (x h : Act) (Wx Wh : Wts) (bx bh : Bias) : Act := fun i =>
  Ideal.logistic (gate x h Wx Wh bx bh (i 0) 3 (i 1))

/-- The new cell state: forget gate times the old cell state plus input gate times the candidate. -/
def cellNew (x c h : Act) (Wx Wh : Wts) (bx bh : Bias) : Act := fun i =>
  Ideal.logistic (gate x h Wx Wh bx bh (i 0) 0 (i 1)) * c i
    + Ideal.logistic (gate x h Wx Wh bx bh (i 0) 1 (i 1)) * Ideal.tanh (gate x h Wx Wh bx bh (i 0) 2 (i 1))

/-- The new hidden state: the output gate times tanh of the new cell state. -/
def hidNew (x c h : Act) (Wx Wh : Wts) (bx bh : Bias) : Act := fun i =>
  outGate x h Wx Wh bx bh i * Ideal.tanh (cellNew x c h Wx Wh bx bh i)

/-- The logistic function is the quotient `1 / (1 + e^(−z))`, the ones spelled as the f32 pattern of 1.0. -/
theorem logistic_eq_quotient (z : EReal) :
    Ideal.div (Ideal.ofBits .f32 0x3F800000#32) (Ideal.ofBits .f32 0x3F800000#32 + Ideal.exp (-z)) = Ideal.logistic z := by
  rw [Ideal.ofBits_one_f32]
  rfl

/-- The biases added one after the other are the biases added as their sum. -/
theorem bias_one_by_one (s p q : EReal) : s + p + q = s + (p + q) := add_assoc s p q

end Cert.Lstm

end
-- ==== Proof.HostSide.lean ====
/-
  What the region finds in the three arrays the host prepares before the call.

  The host flattens each stacked weight array `W[g,j,k]` (4 × 1024 × 1024) to 4096 × 1024 — gate `g`'s row `j` becomes
  row `g·1024 + j` —, transposes it to 1024 × 4096 and rounds it to bf16 (the identity on the extended reals). So the
  transposed matrix holds, at row `k` and column `n = g·1024 + j`, the entry `W[g,j,k]`.

  The two bias arrays `bx[g,j]`, `bh[g,j]` (4 × 1024) are each flattened to 4096 entries, added, and laid out as one row
  1 × 4096: column `n = g·1024 + j` of that row holds `bx[g,j] + bh[g,j]`.
-/
import proofs.«155656_j12962211300009_2_alg».proof.Proof.Gen.KernelIdeal.Frame
import Idealize.ShloMosaic.Lib.StableHlo.Run
import Idealize.ShloMosaic.Lib.ValueIdx
import Idealize.ShloMosaic.Lib.ValueLayout
import Idealize.ShloMosaic.Lib.Pipeline.Value

noncomputable section

namespace Cert.KernelIdeal.HostSide

open Cert.KernelIdeal Cert.KernelIdeal.Gen Idealize.ShloMosaic Idealize.ShloMosaic.TcCoe Idealize.ShloMosaic.ValueIdx
open Idealize.SL.Sem Idealize.ShloMosaic.StableHlo

/-! ## The layout operations, over arbitrary arrays -/

/-- A stacked weight array flattened, transposed and rounded: row `k`, column `g·1024 + j` is `W[g,j,k]`. -/
theorem flatten_transpose_apply (W : FVec Ideal S4x1024x1024 .f32) (hc : S4x1024x1024.ShapeCasts S4096x1024)
    (ht : S4096x1024.Transposes [1, 0] S1024x4096) (hb : FTy.bits .bf16 < FTy.bits .f32)
    (g : Fin 4) (j k : Fin 1024) (n : Fin 4096) (hn : n.val = g.val * 1024 + j.val) :
    (truncf .bf16 (transpose S1024x4096 [1, 0] (shapeCast S4096x1024 W hc) ht) hb : FVec Ideal S1024x4096 .bf16) (ix2 k n)
      = W (ix3 g j k) := by
  rw [truncf_apply, transpose_ix2_apply]
  refine shapeCast_apply W hc (ix2 n k) (ix3 g j k) ?_
  rw [Shape.rowMajor_val_three, Shape.rowMajor_val_two]
  show (g.val * 1024 + j.val) * 1024 + k.val = n.val * 1024 + k.val
  omega

/-- A stacked bias array flattened: entry `g·1024 + j` is `b[g,j]`. -/
theorem flatten_bias_apply (b : FVec Ideal S4x1024 .f32) (hc : S4x1024.ShapeCasts S4096)
    (g : Fin 4) (j : Fin 1024) (n : Fin 4096) (hn : n.val = g.val * 1024 + j.val) :
    shapeCast S4096 b hc (ix1 n) = b (ix2 g j) := by
  refine shapeCast_apply b hc (ix1 n) (ix2 g j) ?_
  rw [Shape.rowMajor_val_two, Shape.rowMajor_val_one]
  show g.val * 1024 + j.val = n.val
  omega

/-- The two flattened biases added and laid out as one row: column `g·1024 + j` is `bx[g,j] + bh[g,j]`. -/
theorem bias_row_apply (bx bh : FVec Ideal S4x1024 .f32) (hc : S4x1024.ShapeCasts S4096) (hr : S4096.ShapeCasts S1x4096)
    (g : Fin 4) (j : Fin 1024) (n : Fin 4096) (hn : n.val = g.val * 1024 + j.val) :
    shapeCast S1x4096 (addf (shapeCast S4096 bx hc) (shapeCast S4096 bh hc)) hr (ix2 (0 : Fin 1) n)
      = bx (ix2 g j) + bh (ix2 g j) := by
  rw [shapeCast_a_1a_apply, addf_apply, flatten_bias_apply bx hc g j n hn, flatten_bias_apply bh hc g j n hn]

/-! ## The arrays as the region finds them -/

variable (m : (ℓ : Loc nD τ sig) → Buf (Elt Ideal) ℓ)

/-- The seven argument arrays as launched on core `c`, as functions to the extended reals. -/
abbrev argX (c : Dev nD) : S16384x1024.Idx → EReal := m ((c : Thread nD τ).loc main_arg0)
abbrev argC (c : Dev nD) : S16384x1024.Idx → EReal := m ((c : Thread nD τ).loc main_arg1)
abbrev argH (c : Dev nD) : S16384x1024.Idx → EReal := m ((c : Thread nD τ).loc main_arg2)
abbrev argWx (c : Dev nD) : S4x1024x1024.Idx → EReal := m ((c : Thread nD τ).loc main_arg3)
abbrev argBx (c : Dev nD) : S4x1024.Idx → EReal := m ((c : Thread nD τ).loc main_arg4)
abbrev argWh (c : Dev nD) : S4x1024x1024.Idx → EReal := m ((c : Thread nD τ).loc main_arg5)
abbrev argBh (c : Dev nD) : S4x1024.Idx → EReal := m ((c : Thread nD τ).loc main_arg6)

/-- The three arrays the host prepares, as the region finds them. -/
abbrev wxT (c : Dev nD) : S1024x4096.Idx → EReal := V m c main_v2
abbrev whT (c : Dev nD) : S1024x4096.Idx → EReal := V m c main_v5
abbrev biasRow (c : Dev nD) : S1x4096.Idx → EReal := V m c main_v9

/-- The input weights' window: row `k`, column `g·1024 + j` of the transposed matrix is `Wx[g,j,k]` as launched. -/
theorem wxT_apply (c : Dev nD) (g : Fin 4) (j k : Fin 1024) (n : Fin 4096) (hn : n.val = g.val * 1024 + j.val) :
    wxT m c (ix2 k n) = argWx m c (ix3 g j k) := by
  have e : wxT m c
      = truncf (F := Ideal) .bf16 (transpose S1024x4096 [1, 0]
          (shapeCast S4096x1024 (argWx m c) Facts₀.shapeCasts_S4x1024x1024_S4096x1024)
          Facts₀.transposes_S4096x1024_S1024x4096_1_0) Facts₀.bitsLt_bf16_f32 := by
    dsimp only [wxT, argWx, Gen.V, Gen.hostOps0]; after_results; rfl
  rw [e]
  exact flatten_transpose_apply _ _ _ _ g j k n hn

/-- The hidden weights' window: row `k`, column `g·1024 + j` of the transposed matrix is `Wh[g,j,k]` as launched. -/
theorem whT_apply (c : Dev nD) (g : Fin 4) (j k : Fin 1024) (n : Fin 4096) (hn : n.val = g.val * 1024 + j.val) :
    whT m c (ix2 k n) = argWh m c (ix3 g j k) := by
  have e : whT m c
      = truncf (F := Ideal) .bf16 (transpose S1024x4096 [1, 0]
          (shapeCast S4096x1024 (argWh m c) Facts₀.shapeCasts_S4x1024x1024_S4096x1024)
          Facts₀.transposes_S4096x1024_S1024x4096_1_0) Facts₀.bitsLt_bf16_f32 := by
    dsimp only [whT, argWh, Gen.V, Gen.hostOps0]; after_results; rfl
  rw [e]
  exact flatten_transpose_apply _ _ _ _ g j k n hn

/-- The bias window: column `g·1024 + j` of its one row is `bx[g,j] + bh[g,j]` as launched. -/
theorem bias_apply (c : Dev nD) (g : Fin 4) (j : Fin 1024) (n : Fin 4096) (hn : n.val = g.val * 1024 + j.val) :
    biasRow m c (ix2 (0 : Fin 1) n) = argBx m c (ix2 g j) + argBh m c (ix2 g j) := by
  have e : biasRow m c
      = shapeCast S1x4096 (addf (F := Ideal) (φ := .f32)
          (shapeCast S4096 (argBx m c) Facts₀.shapeCasts_S4x1024_S4096)
          (shapeCast S4096 (argBh m c) Facts₀.shapeCasts_S4x1024_S4096))
          Facts₀.shapeCasts_S4096_S1x4096 := by
    dsimp only [biasRow, argBx, argBh, Gen.V, Gen.hostOps0]; after_results; rfl
  rw [e]
  exact bias_row_apply _ _ _ _ g j n hn

end Cert.KernelIdeal.HostSide

end
-- ==== Proof.GatePayload.lean ====
/-
  The kernel body's stacked pre-activation at an index.

  At one grid point the body holds a 256-row block of `x` and of `h`, the two transposed weight matrices (1024 × 4096,
  the four gates side by side along the columns) and the bias row (1 × 4096). Its first payload is

      pre = x_blk · Wxᵀ + h_blk · Whᵀ + bias_row        (256 × 4096),

  each product a matrix multiplication into a zero accumulator and the bias row broadcast down the rows. Read on the
  extended reals, where the rounding to bf16 is the identity and a matrix product is the plain sum over the contracted
  axis, the entry at row `p`, column `n` is

      (Σₖ x_blk[p,k]·Wxᵀ[k,n] + Σₖ h_blk[p,k]·Whᵀ[k,n]) + bias_row[0,n].
-/
import proofs.«155656_j12962211300009_2_alg».proof.Proof.Gen.KernelIdeal.Skeleton
import Idealize.ShloMosaic.PureOps.Ideal.Laws
import Idealize.ShloMosaic.Lib.ValueIdx
import Idealize.ShloMosaic.Lib.ValueLayout
import Idealize.ShloMosaic.Lib.Pipeline.Value

noncomputable section

namespace Cert.KernelIdeal.GatePayload

open Cert.KernelIdeal Cert.KernelIdeal.Gen Idealize.ShloMosaic Idealize.ShloMosaic.TcCoe Idealize.ShloMosaic.ValueIdx

/-! ## The body's matrix product: which operand entries an output entry contracts -/

/-- The left operand's row coordinate is the output's row. -/
theorem lhs_row (i : S256x4096.Idx) (q : dot_S256x1024_S1024x4096_S256x4096_1_0_0_1_n_n.contr.Idx) :
    (dot_S256x1024_S1024x4096_S256x4096_1_0_0_1_n_n.lhsIdx i q 0).val = (i 0).val := by
  unfold DotDims.lhsIdx
  rw [dif_neg (show ¬(0 : Fin S256x1024.rank) ∈ dot_S256x1024_S1024x4096_S256x4096_1_0_0_1_n_n.lhsBatch by decide), dif_pos (show (0 : Fin S256x1024.rank) ∈ dot_S256x1024_S1024x4096_S256x4096_1_0_0_1_n_n.lhsNonContracting by decide)]
  rfl

/-- The left operand's column coordinate is the contraction index. -/
theorem lhs_col (i : S256x4096.Idx) (q : dot_S256x1024_S1024x4096_S256x4096_1_0_0_1_n_n.contr.Idx) :
    (dot_S256x1024_S1024x4096_S256x4096_1_0_0_1_n_n.lhsIdx i q 1).val = (q ⟨0, by decide⟩).val :=
  dot_S256x1024_S1024x4096_S256x4096_1_0_0_1_n_n.lhsIdx_val_of_single rfl i q

/-- The right operand's row coordinate is the contraction index. -/
theorem rhs_row (i : S256x4096.Idx) (q : dot_S256x1024_S1024x4096_S256x4096_1_0_0_1_n_n.contr.Idx) :
    (dot_S256x1024_S1024x4096_S256x4096_1_0_0_1_n_n.rhsIdx i q 0).val = (q ⟨0, by decide⟩).val :=
  dot_S256x1024_S1024x4096_S256x4096_1_0_0_1_n_n.rhsIdx_val_of_single rfl i q

/-- The right operand's column coordinate is the output's column. -/
theorem rhs_col (i : S256x4096.Idx) (q : dot_S256x1024_S1024x4096_S256x4096_1_0_0_1_n_n.contr.Idx) :
    (dot_S256x1024_S1024x4096_S256x4096_1_0_0_1_n_n.rhsIdx i q 1).val = (i 1).val := by
  unfold DotDims.rhsIdx
  rw [dif_neg (show ¬(1 : Fin S1024x4096.rank) ∈ dot_S256x1024_S1024x4096_S256x4096_1_0_0_1_n_n.rhsBatch by decide), dif_pos (show (1 : Fin S1024x4096.rank) ∈ dot_S256x1024_S1024x4096_S256x4096_1_0_0_1_n_n.rhsNonContracting by decide)]
  rfl

/-- A 256 × 1024 by 1024 × 4096 product into the zero accumulator, at `(p, n)`: the sum over `k` of `A[p,k]·B[k,n]`. -/
theorem product_apply (A : FVec Ideal S256x1024 .bf16) (B : FVec Ideal S1024x4096 .bf16) (p : Fin 256) (n : Fin 4096) :
    matmul dot_S256x1024_S1024x4096_S256x4096_1_0_0_1_n_n none A B (constant (F := Ideal) S256x4096 .f32 0x00000000#32) (ix2 p n)
      = ∑ k : Fin 1024, A (ix2 p k) * B (ix2 k n) := by
  simp only [matmul]
  rw [Ideal.matmul_constant_zero_apply, ← Equiv.sum_comp (ValueIdx.contrEquiv1 dot_S256x1024_S1024x4096_S256x4096_1_0_0_1_n_n 1024 rfl rfl).symm]
  refine Finset.sum_congr rfl fun k _ => ?_
  have hk := ValueIdx.contrEquiv1_symm_val dot_S256x1024_S1024x4096_S256x4096_1_0_0_1_n_n 1024 rfl rfl k
  have el : dot_S256x1024_S1024x4096_S256x4096_1_0_0_1_n_n.lhsIdx (ix2 p n) ((ValueIdx.contrEquiv1 dot_S256x1024_S1024x4096_S256x4096_1_0_0_1_n_n 1024 rfl rfl).symm k) = ix2 p k := funext fun a => Fin.ext (by
    match a with
    | ⟨0, _⟩ => exact lhs_row _ _
    | ⟨1, _⟩ => exact (lhs_col _ _).trans hk)
  have er : dot_S256x1024_S1024x4096_S256x4096_1_0_0_1_n_n.rhsIdx (ix2 p n) ((ValueIdx.contrEquiv1 dot_S256x1024_S1024x4096_S256x4096_1_0_0_1_n_n 1024 rfl rfl).symm k) = ix2 k n := funext fun a => Fin.ext (by
    match a with
    | ⟨0, _⟩ => exact (rhs_row _ _).trans hk
    | ⟨1, _⟩ => exact rhs_col _ _)
  rw [el, er]

/-! ## The stacked pre-activation -/

/-- The body's first payload at `(p, n)`: the two products' entries there, plus the bias row's entry in column `n`. -/
theorem pre_apply (X H : Vec Ideal S256x1024 .f32) (WxT WhT : Vec Ideal S1024x4096 .bf16) (brow : Vec Ideal S1x4096 .f32)
    (p : Fin 256) (n : Fin 4096) :
    k0_pay1 (F := Ideal) X H WxT WhT brow (ix2 p n)
      = ((∑ k : Fin 1024, X (ix2 p k) * WxT (ix2 k n)) + ∑ k : Fin 1024, H (ix2 p k) * WhT (ix2 k n))
          + brow (ix2 (0 : Fin 1) n) := by
  unfold k0_pay1
  rw [shapeCast_self, shapeCast_self, shapeCast_self]
  rw [addf_apply, addf_apply, product_apply, product_apply, broadcastTo_1b_ab_apply]
  rfl

end Cert.KernelIdeal.GatePayload

end
-- ==== Proof.CellPoint.lean ====
/-
  One grid point, in pure terms.

  Suppose the blocks the body loads at a grid point hold, around a block index `y = (r, q)` and the array index
  `i = (b, q)` it stands for, what the cell needs there: row `r` of the `x` block is row `b` of `x`, likewise for `h`;
  the `c` block at `y` is `c` at `i`; the transposed weight matrices hold `W[g,j,k]` at row `k`, column `g·1024 + j`;
  and the bias row holds `bx[g,j] + bh[g,j]` in column `g·1024 + j`. Then column `g·1024 + q` of the stacked
  pre-activation's row `r` is the gate pre-activation `gate b g q`, and the three values the body stores at `y` —
  σ of gate 3; σ(gate 0)·c + σ(gate 1)·tanh(gate 2); and their combination o·tanh(c_new) — are the cell's three results
  at `i`. (The body takes the four gates as the column ranges starting at 0, 1024, 2048 and 3072.)
-/
import proofs.«155656_j12962211300009_2_alg».proof.Proof.Gen.KernelIdeal.Value
import proofs.«155656_j12962211300009_2_alg».proof.Proof.LstmSpec
import proofs.«155656_j12962211300009_2_alg».proof.Proof.GatePayload

noncomputable section

namespace Cert.KernelIdeal.CellPoint

open Cert.KernelIdeal Cert.KernelIdeal.Gen Cert.KernelIdeal.Value Cert.Lstm
open Idealize.ShloMosaic Idealize.ShloMosaic.TcCoe Idealize.ShloMosaic.ValueIdx

/-- A block index's row, as a number below 256. -/
abbrev blkRow (y : S256x1024.Idx) : Fin 256 := y 0

/-- The blocks at one grid point hold, around block index `y`, what array index `i` needs of the seven arrays. -/
structure BlockOf (X H C : Vec Ideal S256x1024 .f32) (WxT WhT : Vec Ideal S1024x4096 .bf16) (brow : Vec Ideal S1x4096 .f32)
    (x c h : Act) (Wx Wh : Wts) (bx bh : Bias) (y : S256x1024.Idx) (i : S16384x1024.Idx) : Prop where
  /-- the block's column is the array's column -/
  col : (i 1).val = (y 1).val
  /-- the block row of `x` is the array row of `x` -/
  xrow : ∀ k : Fin 1024, X (ix2 (blkRow y) k) = x (ix2 (i 0) k)
  /-- the block row of `h` is the array row of `h` -/
  hrow : ∀ k : Fin 1024, H (ix2 (blkRow y) k) = h (ix2 (i 0) k)
  /-- the old cell state at the block index -/
  cell : C y = c i
  /-- the transposed input weights -/
  wx : ∀ (g : Fin 4) (j k : Fin 1024) (n : Fin 4096), n.val = g.val * 1024 + j.val → WxT (ix2 k n) = Wx (ix3 g j k)
  /-- the transposed hidden weights -/
  wh : ∀ (g : Fin 4) (j k : Fin 1024) (n : Fin 4096), n.val = g.val * 1024 + j.val → WhT (ix2 k n) = Wh (ix3 g j k)
  /-- the summed bias row -/
  bias : ∀ (g : Fin 4) (j : Fin 1024) (n : Fin 4096), n.val = g.val * 1024 + j.val →
    brow (ix2 (0 : Fin 1) n) = bx (ix2 g j) + bh (ix2 g j)

section
variable {X H C : Vec Ideal S256x1024 .f32} {WxT WhT : Vec Ideal S1024x4096 .bf16} {brow : Vec Ideal S1x4096 .f32}
  {x c h : Act} {Wx Wh : Wts} {bx bh : Bias} {y : S256x1024.Idx} {i : S16384x1024.Idx}

/-- Column `g·1024 + q` of row `r` of the stacked pre-activation is gate `g`'s pre-activation at `(b, q)`. -/
theorem pre_gate (hB : BlockOf X H C WxT WhT brow x c h Wx Wh bx bh y i) (g : Fin 4) (n : Fin 4096)
    (hn : n.val = g.val * 1024 + (y 1).val) :
    k0_pay1 (F := Ideal) X H WxT WhT brow (ix2 (blkRow y) n) = gate x h Wx Wh bx bh (i 0) g (i 1) := by
  have hn' : n.val = g.val * 1024 + (i 1).val := by rw [hB.col]; exact hn
  rw [GatePayload.pre_apply]
  unfold gate
  rw [hB.bias g (i 1) n hn']
  congr 1
  congr 1
  · exact Finset.sum_congr rfl fun k _ => by rw [hB.xrow k, hB.wx g (i 1) k n hn']
  · exact Finset.sum_congr rfl fun k _ => by rw [hB.hrow k, hB.wh g (i 1) k n hn']

/-- The column of the stacked pre-activation that gate range `o` reads for block column `q`. -/
def gcol (y : S256x1024.Idx) (o : Nat) (ho : o + 1024 ≤ 4096) : Fin 4096 :=
  ⟨(y 1).val + o, by have hy1 : (y 1).val < 1024 := (y 1).isLt; omega⟩

theorem gcol_val (y : S256x1024.Idx) (o : Nat) (ho : o + 1024 ≤ 4096) : (gcol y o ho).val = (y 1).val + o := rfl

/-- Where the body's slices read the stacked pre-activation, by coordinates. -/
theorem out_idx (y : S256x1024.Idx) : ix6_0 y = ix2 (blkRow y) (gcol y 3072 (by omega)) := by
  funext a; match a with | ⟨0, _⟩ => rfl | ⟨1, _⟩ => rfl
theorem cell_idx_f (y : S256x1024.Idx) : ix7_0 y = ix2 (blkRow y) (gcol y 0 (by omega)) := by
  funext a; match a with | ⟨0, _⟩ => rfl | ⟨1, _⟩ => rfl
theorem cell_idx_c (y : S256x1024.Idx) : ix7_1 y = y := by
  funext a; match a with | ⟨0, _⟩ => rfl | ⟨1, _⟩ => rfl
theorem cell_idx_i (y : S256x1024.Idx) : ix7_2 y = ix2 (blkRow y) (gcol y 1024 (by omega)) := by
  funext a; match a with | ⟨0, _⟩ => rfl | ⟨1, _⟩ => rfl
theorem cell_idx_k (y : S256x1024.Idx) : ix7_3 y = ix2 (blkRow y) (gcol y 2048 (by omega)) := by
  funext a; match a with | ⟨0, _⟩ => rfl | ⟨1, _⟩ => rfl
theorem hid_idx_o (y : S256x1024.Idx) : ix8_0 y = ix2 (blkRow y) (gcol y 3072 (by omega)) := by
  funext a; match a with | ⟨0, _⟩ => rfl | ⟨1, _⟩ => rfl
theorem hid_idx_f (y : S256x1024.Idx) : ix8_1 y = ix2 (blkRow y) (gcol y 0 (by omega)) := by
  funext a; match a with | ⟨0, _⟩ => rfl | ⟨1, _⟩ => rfl
theorem hid_idx_c (y : S256x1024.Idx) : ix8_2 y = y := by
  funext a; match a with | ⟨0, _⟩ => rfl | ⟨1, _⟩ => rfl
theorem hid_idx_i (y : S256x1024.Idx) : ix8_3 y = ix2 (blkRow y) (gcol y 1024 (by omega)) := by
  funext a; match a with | ⟨0, _⟩ => rfl | ⟨1, _⟩ => rfl
theorem hid_idx_k (y : S256x1024.Idx) : ix8_4 y = ix2 (blkRow y) (gcol y 2048 (by omega)) := by
  funext a; match a with | ⟨0, _⟩ => rfl | ⟨1, _⟩ => rfl

/-- The four gates at the point: the column ranges starting at 0, 1024, 2048, 3072 are gates 0, 1, 2, 3. -/
theorem gate_f (hB : BlockOf X H C WxT WhT brow x c h Wx Wh bx bh y i) :
    k0_pay1 (F := Ideal) X H WxT WhT brow (ix2 (blkRow y) (gcol y 0 (by omega))) = gate x h Wx Wh bx bh (i 0) 0 (i 1) :=
  pre_gate hB 0 _ (by rw [gcol_val]; show (y 1).val + 0 = 0 * 1024 + (y 1).val; omega)
theorem gate_i (hB : BlockOf X H C WxT WhT brow x c h Wx Wh bx bh y i) :
    k0_pay1 (F := Ideal) X H WxT WhT brow (ix2 (blkRow y) (gcol y 1024 (by omega))) = gate x h Wx Wh bx bh (i 0) 1 (i 1) :=
  pre_gate hB 1 _ (by rw [gcol_val]; show (y 1).val + 1024 = 1 * 1024 + (y 1).val; omega)
theorem gate_k (hB : BlockOf X H C WxT WhT brow x c h Wx Wh bx bh y i) :
    k0_pay1 (F := Ideal) X H WxT WhT brow (ix2 (blkRow y) (gcol y 2048 (by omega))) = gate x h Wx Wh bx bh (i 0) 2 (i 1) :=
  pre_gate hB 2 _ (by rw [gcol_val]; show (y 1).val + 2048 = 2 * 1024 + (y 1).val; omega)
theorem gate_o (hB : BlockOf X H C WxT WhT brow x c h Wx Wh bx bh y i) :
    k0_pay1 (F := Ideal) X H WxT WhT brow (ix2 (blkRow y) (gcol y 3072 (by omega))) = gate x h Wx Wh bx bh (i 0) 3 (i 1) :=
  pre_gate hB 3 _ (by rw [gcol_val]; show (y 1).val + 3072 = 3 * 1024 + (y 1).val; omega)

/-- What the body stores in the first result's block at `y` is the output gate at `i`. -/
theorem out_point (hB : BlockOf X H C WxT WhT brow x c h Wx Wh bx bh y i) :
    E6 X H WxT WhT brow y = outGate x h Wx Wh bx bh i := by
  show FloatOps.logistic (k0_pay1 X H WxT WhT brow (ix6_0 y)) = _
  rw [out_idx, gate_o hB]
  rfl

/-- What the body stores in the second result's block at `y` is the new cell state at `i`. -/
theorem cell_point (hB : BlockOf X H C WxT WhT brow x c h Wx Wh bx bh y i) :
    E7 X H WxT WhT brow C y = cellNew x c h Wx Wh bx bh i := by
  show FloatOps.addf (FloatOps.mulf (FloatOps.logistic (k0_pay1 X H WxT WhT brow (ix7_0 y))) (C (ix7_1 y)))
      (FloatOps.mulf (FloatOps.logistic (k0_pay1 X H WxT WhT brow (ix7_2 y))) (FloatOps.tanh (k0_pay1 X H WxT WhT brow (ix7_3 y)))) = _
  rw [cell_idx_f, cell_idx_c, cell_idx_i, cell_idx_k, gate_f hB, gate_i hB, gate_k hB, hB.cell]
  rfl

/-- What the body stores in the third result's block at `y` is the new hidden state at `i`. -/
theorem hid_point (hB : BlockOf X H C WxT WhT brow x c h Wx Wh bx bh y i) :
    E8 X H WxT WhT brow C y = hidNew x c h Wx Wh bx bh i := by
  show FloatOps.mulf (FloatOps.logistic (k0_pay1 X H WxT WhT brow (ix8_0 y)))
      (FloatOps.tanh (FloatOps.addf (FloatOps.mulf (FloatOps.logistic (k0_pay1 X H WxT WhT brow (ix8_1 y))) (C (ix8_2 y)))
        (FloatOps.mulf (FloatOps.logistic (k0_pay1 X H WxT WhT brow (ix8_3 y))) (FloatOps.tanh (k0_pay1 X H WxT WhT brow (ix8_4 y)))))) = _
  rw [hid_idx_o, hid_idx_f, hid_idx_c, hid_idx_i, hid_idx_k, gate_o hB, gate_f hB, gate_i hB, gate_k hB, hB.cell]
  rfl

end

end Cert.KernelIdeal.CellPoint

end
-- ==== Proof.CellBlocks.lean ====
/-
  From the grid's blocks to the whole arrays.

  The call runs 64 grid points. Point `t` stages rows 256·t … 256·t + 255 of `x`, `h` and `c`, the whole of the two
  transposed weight matrices and of the bias row, and writes back rows 256·t … 256·t + 255 of each of the three results.
  So at block index `(r, q)` of point `t` the body works on array index `(256·t + r, q)`, its blocks hold there what
  the cell needs (the per-point module's hypothesis), and what it writes back is block `t` of the cell's function of the
  argument arrays. The 64 blocks of 256 rows tile the 16384 rows, so each result array ends as that function everywhere.
-/
import proofs.«155656_j12962211300009_2_alg».proof.Proof.Gen.KernelIdeal.Value
import proofs.«155656_j12962211300009_2_alg».proof.Proof.LstmSpec
import proofs.«155656_j12962211300009_2_alg».proof.Proof.HostSide
import proofs.«155656_j12962211300009_2_alg».proof.Proof.CellPoint

noncomputable section

namespace Cert.KernelIdeal.CellBlocks

open Cert.KernelIdeal Cert.KernelIdeal.Gen Cert.KernelIdeal.Value Cert.KernelIdeal.HostSide Cert.KernelIdeal.CellPoint Cert.Lstm
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ) (ρ : Dev nD → PrngReg)

/-- The body's accesses all start at the origin of their buffers. -/
theorem origin : (![0, 0] : Fin 2 → Nat) = fun _ => 0 := funext fun a => by fin_cases a <;> rfl

/-- The printed index maps, decided over the 64 grid points: the three inputs and the three results cut by rows move
    to block row `t` at point `t`; the weights and the bias row stay at block (0, 0). -/
theorem index_maps : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0
    ∧ win0_7.index t (0 : Fin 2) = t.val ∧ win0_7.index t (1 : Fin 2) = 0
    ∧ win0_8.index t (0 : Fin 2) = t.val ∧ win0_8.index t (1 : Fin 2) = 0 :=
  (by decide +kernel : ∀ t : Fin grid0.N, _)

/-! ## The input windows' blocks, read through the arrays -/

/-- Point `t`'s block of `x` at `(r, q)` is `x` at `(256·t + r, q)`. -/
theorem x_block (c : Dev nD) (t : Fin cfg0.N) (z : S256x1024.Idx) (i : S16384x1024.Idx)
    (h0 : (i 0).val = t.val * 256 + (z 0).val) (h1 : (i 1).val = (z 1).val) :
    (iblk m c 0 t : Vec Ideal S256x1024 .f32) z = argX m c i := by
  show V m c main_arg0 (((cfg0.win 0).blk t).view.emb z) = m ((c : Thread nD τ).loc main_arg0) i
  rw [V_main_arg0]
  refine congrArg (argX m c) (funext fun a => Fin.ext ?_)
  obtain ⟨a00, a01, a10, a11, a20, a21, a30, a31, a40, a41, a50, a51, a60, a61, a70, a71, a80, a81⟩ := index_maps t
  match a with
  | ⟨0, _⟩ => show win0_0.index t (0 : Fin 2) * 256 + 1 * (z 0).val = (i 0).val; omega
  | ⟨1, _⟩ => show win0_0.index t (1 : Fin 2) * 1024 + 1 * (z 1).val = (i 1).val; omega

/-- Point `t`'s block of `h` at `(r, q)` is `h` at `(256·t + r, q)`. -/
theorem h_block (c : Dev nD) (t : Fin cfg0.N) (z : S256x1024.Idx) (i : S16384x1024.Idx)
    (h0 : (i 0).val = t.val * 256 + (z 0).val) (h1 : (i 1).val = (z 1).val) :
    (iblk m c 1 t : Vec Ideal S256x1024 .f32) z = argH m c i := by
  show V m c main_arg2 (((cfg0.win 1).blk t).view.emb z) = m ((c : Thread nD τ).loc main_arg2) i
  rw [V_main_arg2]
  refine congrArg (argH m c) (funext fun a => Fin.ext ?_)
  obtain ⟨a00, a01, a10, a11, a20, a21, a30, a31, a40, a41, a50, a51, a60, a61, a70, a71, a80, a81⟩ := index_maps t
  match a with
  | ⟨0, _⟩ => show win0_1.index t (0 : Fin 2) * 256 + 1 * (z 0).val = (i 0).val; omega
  | ⟨1, _⟩ => show win0_1.index t (1 : Fin 2) * 1024 + 1 * (z 1).val = (i 1).val; omega

/-- Point `t`'s block of `c` at `(r, q)` is `c` at `(256·t + r, q)`. -/
theorem c_block (c : Dev nD) (t : Fin cfg0.N) (z : S256x1024.Idx) (i : S16384x1024.Idx)
    (h0 : (i 0).val = t.val * 256 + (z 0).val) (h1 : (i 1).val = (z 1).val) :
    (iblk m c 2 t : Vec Ideal S256x1024 .f32) z = argC m c i := by
  show V m c main_arg1 (((cfg0.win 2).blk t).view.emb z) = m ((c : Thread nD τ).loc main_arg1) i
  rw [V_main_arg1]
  refine congrArg (argC m c) (funext fun a => Fin.ext ?_)
  obtain ⟨a00, a01, a10, a11, a20, a21, a30, a31, a40, a41, a50, a51, a60, a61, a70, a71, a80, a81⟩ := index_maps t
  match a with
  | ⟨0, _⟩ => show win0_2.index t (0 : Fin 2) * 256 + 1 * (z 0).val = (i 0).val; omega
  | ⟨1, _⟩ => show win0_2.index t (1 : Fin 2) * 1024 + 1 * (z 1).val = (i 1).val; omega

/-- Every point's block of the transposed input weights is the whole matrix. -/
theorem wx_block (c : Dev nD) (t : Fin cfg0.N) (z : S1024x4096.Idx) :
    (iblk m c 3 t : Vec Ideal S1024x4096 .bf16) z = wxT m c z := by
  show V m c main_v2 (((cfg0.win 3).blk t).view.emb z) = V m c main_v2 z
  refine congrArg (wxT m c) (funext fun a => Fin.ext ?_)
  obtain ⟨a00, a01, a10, a11, a20, a21, a30, a31, a40, a41, a50, a51, a60, a61, a70, a71, a80, a81⟩ := index_maps t
  match a with
  | ⟨0, _⟩ => show win0_3.index t (0 : Fin 2) * 1024 + 1 * (z 0).val = (z 0).val; omega
  | ⟨1, _⟩ => show win0_3.index t (1 : Fin 2) * 4096 + 1 * (z 1).val = (z 1).val; omega

/-- Every point's block of the transposed hidden weights is the whole matrix. -/
theorem wh_block (c : Dev nD) (t : Fin cfg0.N) (z : S1024x4096.Idx) :
    (iblk m c 4 t : Vec Ideal S1024x4096 .bf16) z = whT m c z := by
  show V m c main_v5 (((cfg0.win 4).blk t).view.emb z) = V m c main_v5 z
  refine congrArg (whT m c) (funext fun a => Fin.ext ?_)
  obtain ⟨a00, a01, a10, a11, a20, a21, a30, a31, a40, a41, a50, a51, a60, a61, a70, a71, a80, a81⟩ := index_maps t
  match a with
  | ⟨0, _⟩ => show win0_4.index t (0 : Fin 2) * 1024 + 1 * (z 0).val = (z 0).val; omega
  | ⟨1, _⟩ => show win0_4.index t (1 : Fin 2) * 4096 + 1 * (z 1).val = (z 1).val; omega

/-- Every point's block of the bias row is the whole row. -/
theorem bias_block (c : Dev nD) (t : Fin cfg0.N) (z : S1x4096.Idx) :
    (iblk m c 5 t : Vec Ideal S1x4096 .f32) z = biasRow m c z := by
  show V m c main_v9 (((cfg0.win 5).blk t).view.emb z) = V m c main_v9 z
  refine congrArg (biasRow m c) (funext fun a => Fin.ext ?_)
  obtain ⟨a00, a01, a10, a11, a20, a21, a30, a31, a40, a41, a50, a51, a60, a61, a70, a71, a80, a81⟩ := index_maps t
  match a with
  | ⟨0, _⟩ => show win0_5.index t (0 : Fin 2) * 1 + 1 * (z 0).val = (z 0).val; omega
  | ⟨1, _⟩ => show win0_5.index t (1 : Fin 2) * 4096 + 1 * (z 1).val = (z 1).val; omega

/-- At point `t` the blocks hold, around block index `y`, what the array index `(256·t + r, q)` needs. -/
theorem blockOf_point (c : Dev nD) (t : Fin cfg0.N) (y : S256x1024.Idx) (i : S16384x1024.Idx)
    (h0 : (i 0).val = t.val * 256 + (y 0).val) (h1 : (i 1).val = (y 1).val) :
    BlockOf (iblk m c 0 t) (iblk m c 1 t) (iblk m c 2 t) (iblk m c 3 t) (iblk m c 4 t) (iblk m c 5 t)
      (argX m c) (argC m c) (argH m c) (argWx m c) (argWh m c) (argBx m c) (argBh m c) y i where
  col := h1
  xrow k := x_block m c t (ix2 (blkRow y) k) (ix2 (i 0) k) h0 rfl
  hrow k := h_block m c t (ix2 (blkRow y) k) (ix2 (i 0) k) h0 rfl
  cell := c_block m c t y i h0 h1
  wx g j k n hn := (wx_block m c t (ix2 k n)).trans (wxT_apply m c g j k n hn)
  wh g j k n hn := (wh_block m c t (ix2 k n)).trans (whT_apply m c g j k n hn)
  bias g j n hn := (bias_block m c t (ix2 (0 : Fin 1) n)).trans (bias_apply m c g j n hn)

/-! ## The first result: the output gate -/

/-- What point `t` writes back to this result's array is block `t` of the cell's function of the argument arrays. -/
theorem flushed_out (c : Dev nD) (t : Fin cfg0.N) :
    (dats m 0 c).flushed 6 t = ((cfg0.win 6).blk t).view.read (Elt Ideal) (outGate (argX m c) (argH m c) (argWx m c) (argWh m c) (argBx m c) (argBh m c)) := by
  rw [Value.flushed6]
  unfold out0_6
  simp only [View.ld_unit_zero (S := S256x1024) origin, View.ld_unit_zero (S := S1024x4096) origin, View.ld_unit_zero (S := S1x4096) origin]
  funext y
  refine (Value.canon6_eq (iblk m c 0 t) (iblk m c 1 t) (iblk m c 3 t) (iblk m c 4 t) (iblk m c 5 t) y).trans ?_
  obtain ⟨a00, a01, a10, a11, a20, a21, a30, a31, a40, a41, a50, a51, a60, a61, a70, a71, a80, a81⟩ := index_maps t
  refine out_point (blockOf_point m c t y (((cfg0.win 6).blk t).view.emb y) ?_ ?_)
  · show win0_6.index t (0 : Fin 2) * 256 + 1 * (y 0).val = t.val * 256 + (y 0).val; omega
  · show win0_6.index t (1 : Fin 2) * 1024 + 1 * (y 1).val = (y 1).val; omega

/-- An index of the array is in point `t`'s block iff each coordinate is in the block's range on its axis. -/
theorem mem_block_out (t : Fin cfg0.N) (i : S16384x1024.Idx) :
    i ∈ ((cfg0.win 6).blk t).view.set ↔ ∀ a : Fin 2, win0_6.index t a * S256x1024.size a ≤ (i a).val ∧ (i a).val < win0_6.index t a * S256x1024.size a + S256x1024.size a := by
  show i ∈ ((View.whole main_v10_0).slice (win0_6.rect t)).set ↔ _
  rw [View.set_slice_whole, Rect.mem_set_unit]
  exact Iff.rfl

/-- Every index of the array is in the block of the point numbered by its row divided by 256. -/
theorem cover_out (i : S16384x1024.Idx) :
    ∃ t : Fin cfg0.N, (cfg0.win 6).flush t = true ∧ i ∈ ((cfg0.win 6).blk t).view.set := by
  have hi0 : (i 0).val < 16384 := (i 0).isLt
  have hi1 : (i 1).val < 1024 := (i 1).isLt
  obtain ⟨t, ht⟩ : ∃ t : Fin cfg0.N, t.val = (i 0).val / 256 := ⟨⟨(i 0).val / 256, by show (i 0).val / 256 < 64; omega⟩, rfl⟩
  refine ⟨t, flush0_6 t, ?_⟩
  rw [mem_block_out]
  obtain ⟨a00, a01, a10, a11, a20, a21, a30, a31, a40, a41, a50, a51, a60, a61, a70, a71, a80, a81⟩ := index_maps t
  intro a
  match a with
  | ⟨0, _⟩ => show win0_6.index t (0 : Fin 2) * 256 ≤ (i 0).val ∧ (i 0).val < win0_6.index t (0 : Fin 2) * 256 + 256; omega
  | ⟨1, _⟩ => show win0_6.index t (1 : Fin 2) * 1024 ≤ (i 1).val ∧ (i 1).val < win0_6.index t (1 : Fin 2) * 1024 + 1024; omega

/-- The whole array after the run. -/
theorem final_out (c : Dev nD) : (dats m 0 c).arrAt 6 cfg0.N = outGate (argX m c) (argH m c) (argWx m c) (argWh m c) (argBx m c) (argBh m c) :=
  (dats m 0 c).arrAt_eq_of_cover 6 (outGate (argX m c) (argH m c) (argWx m c) (argWh m c) (argBx m c) (argBh m c)) (fun t _ => flushed_out m c t) cover_out

/-! ## The second result: the new cell state -/

/-- What point `t` writes back to this result's array is block `t` of the cell's function of the argument arrays. -/
theorem flushed_cell (c : Dev nD) (t : Fin cfg0.N) :
    (dats m 0 c).flushed 7 t = ((cfg0.win 7).blk t).view.read (Elt Ideal) (cellNew (argX m c) (argC m c) (argH m c) (argWx m c) (argWh m c) (argBx m c) (argBh m c)) := by
  rw [Value.flushed7]
  unfold out0_7
  simp only [View.ld_unit_zero (S := S256x1024) origin, View.ld_unit_zero (S := S1024x4096) origin, View.ld_unit_zero (S := S1x4096) origin]
  funext y
  refine (Value.canon7_eq (iblk m c 0 t) (iblk m c 1 t) (iblk m c 3 t) (iblk m c 4 t) (iblk m c 5 t) (iblk m c 2 t) y).trans ?_
  obtain ⟨a00, a01, a10, a11, a20, a21, a30, a31, a40, a41, a50, a51, a60, a61, a70, a71, a80, a81⟩ := index_maps t
  refine cell_point (blockOf_point m c t y (((cfg0.win 7).blk t).view.emb y) ?_ ?_)
  · show win0_7.index t (0 : Fin 2) * 256 + 1 * (y 0).val = t.val * 256 + (y 0).val; omega
  · show win0_7.index t (1 : Fin 2) * 1024 + 1 * (y 1).val = (y 1).val; omega

/-- An index of the array is in point `t`'s block iff each coordinate is in the block's range on its axis. -/
theorem mem_block_cell (t : Fin cfg0.N) (i : S16384x1024.Idx) :
    i ∈ ((cfg0.win 7).blk t).view.set ↔ ∀ a : Fin 2, win0_7.index t a * S256x1024.size a ≤ (i a).val ∧ (i a).val < win0_7.index t a * S256x1024.size a + S256x1024.size a := by
  show i ∈ ((View.whole main_v10_1).slice (win0_7.rect t)).set ↔ _
  rw [View.set_slice_whole, Rect.mem_set_unit]
  exact Iff.rfl

/-- Every index of the array is in the block of the point numbered by its row divided by 256. -/
theorem cover_cell (i : S16384x1024.Idx) :
    ∃ t : Fin cfg0.N, (cfg0.win 7).flush t = true ∧ i ∈ ((cfg0.win 7).blk t).view.set := by
  have hi0 : (i 0).val < 16384 := (i 0).isLt
  have hi1 : (i 1).val < 1024 := (i 1).isLt
  obtain ⟨t, ht⟩ : ∃ t : Fin cfg0.N, t.val = (i 0).val / 256 := ⟨⟨(i 0).val / 256, by show (i 0).val / 256 < 64; omega⟩, rfl⟩
  refine ⟨t, flush0_7 t, ?_⟩
  rw [mem_block_cell]
  obtain ⟨a00, a01, a10, a11, a20, a21, a30, a31, a40, a41, a50, a51, a60, a61, a70, a71, a80, a81⟩ := index_maps t
  intro a
  match a with
  | ⟨0, _⟩ => show win0_7.index t (0 : Fin 2) * 256 ≤ (i 0).val ∧ (i 0).val < win0_7.index t (0 : Fin 2) * 256 + 256; omega
  | ⟨1, _⟩ => show win0_7.index t (1 : Fin 2) * 1024 ≤ (i 1).val ∧ (i 1).val < win0_7.index t (1 : Fin 2) * 1024 + 1024; omega

/-- The whole array after the run. -/
theorem final_cell (c : Dev nD) : (dats m 0 c).arrAt 7 cfg0.N = cellNew (argX m c) (argC m c) (argH m c) (argWx m c) (argWh m c) (argBx m c) (argBh m c) :=
  (dats m 0 c).arrAt_eq_of_cover 7 (cellNew (argX m c) (argC m c) (argH m c) (argWx m c) (argWh m c) (argBx m c) (argBh m c)) (fun t _ => flushed_cell m c t) cover_cell

/-! ## The third result: the new hidden state -/

/-- What point `t` writes back to this result's array is block `t` of the cell's function of the argument arrays. -/
theorem flushed_hid (c : Dev nD) (t : Fin cfg0.N) :
    (dats m 0 c).flushed 8 t = ((cfg0.win 8).blk t).view.read (Elt Ideal) (hidNew (argX m c) (argC m c) (argH m c) (argWx m c) (argWh m c) (argBx m c) (argBh m c)) := by
  rw [Value.flushed8]
  unfold out0_8
  simp only [View.ld_unit_zero (S := S256x1024) origin, View.ld_unit_zero (S := S1024x4096) origin, View.ld_unit_zero (S := S1x4096) origin]
  funext y
  refine (Value.canon8_eq (iblk m c 0 t) (iblk m c 1 t) (iblk m c 3 t) (iblk m c 4 t) (iblk m c 5 t) (iblk m c 2 t) y).trans ?_
  obtain ⟨a00, a01, a10, a11, a20, a21, a30, a31, a40, a41, a50, a51, a60, a61, a70, a71, a80, a81⟩ := index_maps t
  refine hid_point (blockOf_point m c t y (((cfg0.win 8).blk t).view.emb y) ?_ ?_)
  · show win0_8.index t (0 : Fin 2) * 256 + 1 * (y 0).val = t.val * 256 + (y 0).val; omega
  · show win0_8.index t (1 : Fin 2) * 1024 + 1 * (y 1).val = (y 1).val; omega

/-- An index of the array is in point `t`'s block iff each coordinate is in the block's range on its axis. -/
theorem mem_block_hid (t : Fin cfg0.N) (i : S16384x1024.Idx) :
    i ∈ ((cfg0.win 8).blk t).view.set ↔ ∀ a : Fin 2, win0_8.index t a * S256x1024.size a ≤ (i a).val ∧ (i a).val < win0_8.index t a * S256x1024.size a + S256x1024.size a := by
  show i ∈ ((View.whole main_v10_2).slice (win0_8.rect t)).set ↔ _
  rw [View.set_slice_whole, Rect.mem_set_unit]
  exact Iff.rfl

/-- Every index of the array is in the block of the point numbered by its row divided by 256. -/
theorem cover_hid (i : S16384x1024.Idx) :
    ∃ t : Fin cfg0.N, (cfg0.win 8).flush t = true ∧ i ∈ ((cfg0.win 8).blk t).view.set := by
  have hi0 : (i 0).val < 16384 := (i 0).isLt
  have hi1 : (i 1).val < 1024 := (i 1).isLt
  obtain ⟨t, ht⟩ : ∃ t : Fin cfg0.N, t.val = (i 0).val / 256 := ⟨⟨(i 0).val / 256, by show (i 0).val / 256 < 64; omega⟩, rfl⟩
  refine ⟨t, flush0_8 t, ?_⟩
  rw [mem_block_hid]
  obtain ⟨a00, a01, a10, a11, a20, a21, a30, a31, a40, a41, a50, a51, a60, a61, a70, a71, a80, a81⟩ := index_maps t
  intro a
  match a with
  | ⟨0, _⟩ => show win0_8.index t (0 : Fin 2) * 256 ≤ (i 0).val ∧ (i 0).val < win0_8.index t (0 : Fin 2) * 256 + 256; omega
  | ⟨1, _⟩ => show win0_8.index t (1 : Fin 2) * 1024 ≤ (i 1).val ∧ (i 1).val < win0_8.index t (1 : Fin 2) * 1024 + 1024; omega

/-- The whole array after the run. -/
theorem final_hid (c : Dev nD) : (dats m 0 c).arrAt 8 cfg0.N = hidNew (argX m c) (argC m c) (argH m c) (argWx m c) (argWh m c) (argBx m c) (argBh m c) :=
  (dats m 0 c).arrAt_eq_of_cover 8 (hidNew (argX m c) (argC m c) (argH m c) (argWx m c) (argWh m c) (argBx m c) (argBh m c)) (fun t _ => flushed_hid m c t) cover_hid

/-! ## The run, read -/

/-- Every weakly fair execution of the kernel's program terminates with the three result arrays at the cell's three
    functions of the argument arrays, and the arguments unchanged. -/
theorem run : θ_run defs (onTc (τ := τ) (main (F := Ideal))) ⟨m, fun _ => 0, ρ⟩ fun r => ∀ c : Dev nD,
      r.2.mem ((c : Thread nD τ).loc main_v10_0) = outGate (argX m c) (argH m c) (argWx m c) (argWh m c) (argBx m c) (argBh m c)
      ∧ r.2.mem ((c : Thread nD τ).loc main_v10_1) = cellNew (argX m c) (argC m c) (argH m c) (argWx m c) (argWh m c) (argBx m c) (argBh m c)
      ∧ r.2.mem ((c : Thread nD τ).loc main_v10_2) = hidNew (argX m c) (argC m c) (argH m c) (argWx m c) (argWh m c) (argBx m c) (argBh m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun r h c => ⟨(h c).1.trans (final_out m c),
      (h c).2.1.trans (final_cell m c),
      (h c).2.2.1.trans (final_hid m c),
      (h c).2.2.2⟩)
    (Value.run_blocks m ρ)

end Cert.KernelIdeal.CellBlocks

end
-- ==== Proof.RefCell.lean ====
/-
  The reference, read at an index.

  The reference contracts `x` and `h` with the stacked weights over the feature axis, giving for each batch row `b`,
  gate `g` and hidden unit `j` the sums Σₖ x[b,k]·Wx[g,j,k] and Σₖ h[b,k]·Wh[g,j,k]; it adds the two, then `bx[g,j]`, then
  `bh[g,j]` (each bias broadcast over the batch). That is the gate pre-activation, the biases added one after the other
  instead of as their sum. It then slices out each gate, spells the logistic function as 1 / (1 + e^(−z)) on gates 0, 1
  and 3, takes tanh of gate 2, and combines them with `c` exactly as the cell's definition does. So its three results
  are the cell's three functions of the argument arrays.
-/
import proofs.«155656_j12962211300009_2_alg».proof.Proof.Gen.ReferenceIdeal.Read
import proofs.«155656_j12962211300009_2_alg».proof.Proof.LstmSpec

noncomputable section

namespace Cert.ReferenceIdeal.RefCell

open Cert.ReferenceIdeal Cert.ReferenceIdeal.Read Cert.Lstm
open Idealize.ShloMosaic Idealize.ShloMosaic.TcCoe Idealize.ShloMosaic.ValueIdx

/-- An array index's batch row and hidden unit, as numbers below their literal bounds. -/
abbrev rowOf (i : S16384x1024.Idx) : Fin 16384 := i 0
abbrev colOf (i : S16384x1024.Idx) : Fin 1024 := i 1

/-! ## Where each stage reads its operand, by coordinates -/

/-- The input product at `(b, g, j)` contracts row `b` of `x` … -/
theorem x_side (b : Fin 16384) (g : Fin 4) (j k : Fin 1024) : lidx_main_v0 (ix3 b g j) k = ix2 b k := by
  funext a; match a with | ⟨0, _⟩ => rfl | ⟨1, _⟩ => rfl
/-- … with row `j` of gate `g`'s input weights. -/
theorem wx_side (b : Fin 16384) (g : Fin 4) (j k : Fin 1024) : ridx_main_v0 (ix3 b g j) k = ix3 g j k := by
  funext a; match a with | ⟨0, _⟩ => rfl | ⟨1, _⟩ => rfl | ⟨2, _⟩ => rfl
/-- The hidden product at `(b, g, j)` contracts row `b` of `h` … -/
theorem h_side (b : Fin 16384) (g : Fin 4) (j k : Fin 1024) : lidx_main_v1 (ix3 b g j) k = ix2 b k := by
  funext a; match a with | ⟨0, _⟩ => rfl | ⟨1, _⟩ => rfl
/-- … with row `j` of gate `g`'s hidden weights. -/
theorem wh_side (b : Fin 16384) (g : Fin 4) (j k : Fin 1024) : ridx_main_v1 (ix3 b g j) k = ix3 g j k := by
  funext a; match a with | ⟨0, _⟩ => rfl | ⟨1, _⟩ => rfl | ⟨2, _⟩ => rfl
/-- The input bias broadcast over the batch reads `bx[g,j]`. -/
theorem bx_side (b : Fin 16384) (g : Fin 4) (j : Fin 1024) : idx_main_v3 (idx_main_v4 (ix3 b g j)) = ix2 g j := by
  funext a; match a with | ⟨0, _⟩ => rfl | ⟨1, _⟩ => rfl
/-- The hidden bias broadcast over the batch reads `bh[g,j]`. -/
theorem bh_side (b : Fin 16384) (g : Fin 4) (j : Fin 1024) : idx_main_v6 (idx_main_v7 (ix3 b g j)) = ix2 g j := by
  funext a; match a with | ⟨0, _⟩ => rfl | ⟨1, _⟩ => rfl

/-- Gate 0's slice, squeezed to batch × hidden, reads the stacked array at `(b, 0, j)`. -/
theorem slice_f (i : S16384x1024.Idx) : idx_main_v9 (idx_main_v10 i) = ix3 (rowOf i) (0 : Fin 4) (colOf i) := by
  have h0 : (i 0).val < 16384 := (i 0).isLt
  have h1 : (i 1).val < 1024 := (i 1).isLt
  funext a; apply Fin.ext
  match a with
  | ⟨0, _⟩ => show ((i 0).val * 1024 + (i 1).val) / 1024 = (i 0).val; omega
  | ⟨1, _⟩ => rfl
  | ⟨2, _⟩ => show ((i 0).val * 1024 + (i 1).val) % 1024 = (i 1).val; omega

/-- Gate 1's slice reads the stacked array at `(b, 1, j)`. -/
theorem slice_i (i : S16384x1024.Idx) : idx_main_v17 (idx_main_v18 i) = ix3 (rowOf i) (1 : Fin 4) (colOf i) := by
  have h0 : (i 0).val < 16384 := (i 0).isLt
  have h1 : (i 1).val < 1024 := (i 1).isLt
  funext a; apply Fin.ext
  match a with
  | ⟨0, _⟩ => show ((i 0).val * 1024 + (i 1).val) / 1024 = (i 0).val; omega
  | ⟨1, _⟩ => rfl
  | ⟨2, _⟩ => show ((i 0).val * 1024 + (i 1).val) % 1024 = (i 1).val; omega

/-- Gate 2's slice reads the stacked array at `(b, 2, j)`. -/
theorem slice_k (i : S16384x1024.Idx) : idx_main_v25 (idx_main_v26 i) = ix3 (rowOf i) (2 : Fin 4) (colOf i) := by
  have h0 : (i 0).val < 16384 := (i 0).isLt
  have h1 : (i 1).val < 1024 := (i 1).isLt
  funext a; apply Fin.ext
  match a with
  | ⟨0, _⟩ => show ((i 0).val * 1024 + (i 1).val) / 1024 = (i 0).val; omega
  | ⟨1, _⟩ => rfl
  | ⟨2, _⟩ => show ((i 0).val * 1024 + (i 1).val) % 1024 = (i 1).val; omega

/-- Gate 3's slice reads the stacked array at `(b, 3, j)`. -/
theorem slice_o (i : S16384x1024.Idx) : idx_main_v28 (idx_main_v29 i) = ix3 (rowOf i) (3 : Fin 4) (colOf i) := by
  have h0 : (i 0).val < 16384 := (i 0).isLt
  have h1 : (i 1).val < 1024 := (i 1).isLt
  funext a; apply Fin.ext
  match a with
  | ⟨0, _⟩ => show ((i 0).val * 1024 + (i 1).val) / 1024 = (i 0).val; omega
  | ⟨1, _⟩ => rfl
  | ⟨2, _⟩ => show ((i 0).val * 1024 + (i 1).val) % 1024 = (i 1).val; omega

/-! ## The stages -/

section
variable (x c h : Act) (Wx Wh : Wts) (bx bh : Bias)

/-- The stacked pre-activation at `(b, g, j)` is the gate pre-activation: the same two sums, and the two biases added
    one after the other. -/
theorem stacked_apply (b : Fin 16384) (g : Fin 4) (j : Fin 1024) :
    val_main_v8 (F := Ideal) x h Wx bx Wh bh (ix3 b g j) = gate x h Wx Wh bx bh b g j := by
  rw [val_main_v8_apply, val_main_v5_apply, val_main_v2_apply, val_main_v0_apply, val_main_v1_apply,
    val_main_v4_apply, val_main_v3_apply, val_main_v7_apply, val_main_v6_apply, bx_side, bh_side]
  simp only [x_side, wx_side, h_side, wh_side]
  exact bias_one_by_one _ _ _

/-- Gate 0's pre-activation. -/
theorem pre_f (i : S16384x1024.Idx) :
    val_main_v10 (F := Ideal) x h Wx bx Wh bh i = gate x h Wx Wh bx bh (rowOf i) 0 (colOf i) := by
  rw [val_main_v10_apply, val_main_v9_apply, slice_f, stacked_apply]

/-- Gate 1's pre-activation. -/
theorem pre_i (i : S16384x1024.Idx) :
    val_main_v18 (F := Ideal) x h Wx bx Wh bh i = gate x h Wx Wh bx bh (rowOf i) 1 (colOf i) := by
  rw [val_main_v18_apply, val_main_v17_apply, slice_i, stacked_apply]

/-- Gate 2's pre-activation. -/
theorem pre_k (i : S16384x1024.Idx) :
    val_main_v26 (F := Ideal) x h Wx bx Wh bh i = gate x h Wx Wh bx bh (rowOf i) 2 (colOf i) := by
  rw [val_main_v26_apply, val_main_v25_apply, slice_k, stacked_apply]

/-- Gate 3's pre-activation. -/
theorem pre_o (i : S16384x1024.Idx) :
    val_main_v29 (F := Ideal) x h Wx bx Wh bh i = gate x h Wx Wh bx bh (rowOf i) 3 (colOf i) := by
  rw [val_main_v29_apply, val_main_v28_apply, slice_o, stacked_apply]

/-- The forget gate: the quotient 1 / (1 + e^(−z)) of gate 0 is its logistic function. -/
theorem forget_apply (i : S16384x1024.Idx) :
    val_main_v16 (F := Ideal) x h Wx bx Wh bh i = Ideal.logistic (gate x h Wx Wh bx bh (rowOf i) 0 (colOf i)) := by
  rw [val_main_v16_apply, val_main_v15_apply, val_main_cst_0_apply, val_main_v14_apply, val_main_v13_apply, val_main_cst_apply,
    val_main_v12_apply, val_main_v11_apply, pre_f]
  exact logistic_eq_quotient _

/-- The input gate. -/
theorem input_apply (i : S16384x1024.Idx) :
    val_main_v24 (F := Ideal) x h Wx bx Wh bh i = Ideal.logistic (gate x h Wx Wh bx bh (rowOf i) 1 (colOf i)) := by
  rw [val_main_v24_apply, val_main_v23_apply, val_main_cst_2_apply, val_main_v22_apply, val_main_v21_apply, val_main_cst_1_apply,
    val_main_v20_apply, val_main_v19_apply, pre_i]
  exact logistic_eq_quotient _

/-- The output gate. -/
theorem output_apply (i : S16384x1024.Idx) :
    val_main_v35 (F := Ideal) x h Wx bx Wh bh i = Ideal.logistic (gate x h Wx Wh bx bh (rowOf i) 3 (colOf i)) := by
  rw [val_main_v35_apply, val_main_v34_apply, val_main_cst_4_apply, val_main_v33_apply, val_main_v32_apply, val_main_cst_3_apply,
    val_main_v31_apply, val_main_v30_apply, pre_o]
  exact logistic_eq_quotient _

/-- The candidate: tanh of gate 2. -/
theorem cand_apply (i : S16384x1024.Idx) :
    val_main_v27 (F := Ideal) x h Wx bx Wh bh i = Ideal.tanh (gate x h Wx Wh bx bh (rowOf i) 2 (colOf i)) := by
  rw [val_main_v27_apply, pre_k]
  rfl

/-! ## The three results -/

/-- The reference's first result is the output gate. -/
theorem out_eq : val_main_v35 (F := Ideal) x h Wx bx Wh bh = outGate x h Wx Wh bx bh := by
  funext i
  rw [output_apply]
  rfl

/-- The reference's second result is the new cell state. -/
theorem cell_eq : val_main_v38 (F := Ideal) x c h Wx bx Wh bh = cellNew x c h Wx Wh bx bh := by
  funext i
  rw [val_main_v38_apply, val_main_v36_apply, val_main_v37_apply, forget_apply, input_apply, cand_apply]
  rfl

/-- The reference's third result is the new hidden state. -/
theorem hid_eq : val_main_v40 (F := Ideal) x c h Wx bx Wh bh = hidNew x c h Wx Wh bx bh := by
  funext i
  rw [val_main_v40_apply, output_apply, val_main_v39_apply, val_main_v38_apply, val_main_v36_apply, val_main_v37_apply,
    forget_apply, input_apply, cand_apply]
  rfl

end

end Cert.ReferenceIdeal.RefCell

end
-- ==== Proof.lean ====
/-
  An LSTM cell computed by one pipelined kernel, against its plain reference, over the extended reals.

  Both programs take a batch `x`, the old cell state `c`, the old hidden state `h` (each 16384 × 1024), four stacked
  input and hidden weight matrices `Wx`, `Wh` (4 × 1024 × 1024) and four stacked biases `bx`, `bh` (4 × 1024), and return
  the output gate, the new cell state and the new hidden state (Proof/LstmSpec.lean states the three as functions of the
  arguments, element by element).

  The kernel flattens and transposes the weights on the host, adds the two biases there, and then, 256 batch rows at a
  grid point, multiplies the row blocks of `x` and `h` by the transposed weights, adds the bias row, cuts the 4096
  columns into the four gates and applies the gate functions. The reference contracts `x` and `h` with the stacked weights
  directly, adds the biases one after the other, and spells the logistic function as 1 / (1 + e^(−z)). On the extended
  reals the rounding to bf16 is the identity, a matrix product is the plain sum over the contracted axis, the logistic
  function is that quotient by definition, and addition is associative; so both programs compute the same three functions,
  with no use of the inputs' finiteness.

  The pieces: Proof/GatePayload.lean (the body's stacked pre-activation at an index), Proof/HostSide.lean (the arrays the
  host prepares), Proof/CellPoint.lean (one grid point in pure terms), Proof/CellBlocks.lean (from the 64 blocks to the
  whole result arrays, and the kernel's run), Proof/RefCell.lean (the reference read at an index). The two kernels' frames
  and the reference's run are the generated modules'.
-/
import proofs.«155656_j12962211300009_2_alg».proof.Defs
import proofs.«155656_j12962211300009_2_alg».proof.Proof.Gen.Kernel
import proofs.«155656_j12962211300009_2_alg».proof.Proof.Gen.Kernel.Skeleton
import proofs.«155656_j12962211300009_2_alg».proof.Proof.Gen.Kernel.Launch
import proofs.«155656_j12962211300009_2_alg».proof.Proof.Gen.Kernel.Points
import proofs.«155656_j12962211300009_2_alg».proof.Proof.Gen.Kernel.Frame
import proofs.«155656_j12962211300009_2_alg».proof.Proof.Gen.KernelIdeal
import proofs.«155656_j12962211300009_2_alg».proof.Proof.Gen.KernelIdeal.Skeleton
import proofs.«155656_j12962211300009_2_alg».proof.Proof.Gen.KernelIdeal.Launch
import proofs.«155656_j12962211300009_2_alg».proof.Proof.Gen.KernelIdeal.Points
import proofs.«155656_j12962211300009_2_alg».proof.Proof.Gen.KernelIdeal.Frame
import proofs.«155656_j12962211300009_2_alg».proof.Proof.Gen.ReferenceIdeal
import proofs.«155656_j12962211300009_2_alg».proof.Proof.Gen.Pre_finite_inputs
import proofs.«155656_j12962211300009_2_alg».proof.Proof.Gen.KernelIdeal.Value
import proofs.«155656_j12962211300009_2_alg».proof.Proof.Gen.ReferenceIdeal.Run
import proofs.«155656_j12962211300009_2_alg».proof.Proof.Gen.ReferenceIdeal.Read
import proofs.«155656_j12962211300009_2_alg».proof.Proof.LstmSpec
import proofs.«155656_j12962211300009_2_alg».proof.Proof.HostSide
import proofs.«155656_j12962211300009_2_alg».proof.Proof.CellBlocks
import proofs.«155656_j12962211300009_2_alg».proof.Proof.RefCell
import Idealize.ShloMosaic.Adequacy
import Idealize.ShloMosaic.Init

noncomputable section

namespace Cert.Proof

open Idealize.ShloMosaic Idealize.ShloMosaic.TcCoe Idealize.SL.Sem Cert.Lstm
open Cert.KernelIdeal.HostSide

/-- The word-level kernel runs and leaves its arguments unchanged: the generated frame. -/
theorem frame_kernel : Cert.frame_Kernel := fun m ρ _ => Cert.Kernel.Gen.frame m ρ

/-- So does the idealized kernel. -/
theorem frame_kernel_ideal : Cert.frame_KernelIdeal := fun m ρ _ => Cert.KernelIdeal.Gen.frame m ρ

/-- The reference runs and leaves its arguments unchanged: its generated run with the results dropped. -/
theorem frame_reference : Cert.frame_ReferenceIdeal := fun m ρ _ =>
  (θ_run Cert.ReferenceIdeal.defs _ _).mono (fun _ h c => (h c).2.2.2) (Cert.ReferenceIdeal.Value.run (F := Ideal) m ρ)

/-- The idealization rewrote nothing. -/
theorem preserves : Cert.preserves_Kernel_KernelIdeal := trivial

/-- From memories agreeing on the arguments, the kernel's three result arrays (the blocks module's run) and the
    reference's three results (its generated run, read at an index) are the cell's three functions of the same
    arguments. -/
theorem algebraic : Cert.algebraic_KernelIdeal_ReferenceIdeal := by
  intro m ρ m' ρ' _ hagree
  refine ⟨fun c => outGate (argX m c) (argH m c) (argWx m c) (argWh m c) (argBx m c) (argBh m c),
    fun c => cellNew (argX m c) (argC m c) (argH m c) (argWx m c) (argWh m c) (argBx m c) (argBh m c),
    fun c => hidNew (argX m c) (argC m c) (argH m c) (argWx m c) (argWh m c) (argBx m c) (argBh m c),
    Cert.KernelIdeal.CellBlocks.run m ρ, ?_⟩
  refine (θ_run Cert.ReferenceIdeal.defs _ _).mono (fun _ h c => ?_) (Cert.ReferenceIdeal.Value.run (F := Ideal) m' ρ')
  obtain ⟨a0, a1, a2, a3, a4, a5, a6⟩ := hagree c
  refine ⟨?_, ?_, ?_, (h c).2.2.2⟩
  · rw [(h c).1, Cert.ReferenceIdeal.Read.val_main_v35_eq, Cert.ReferenceIdeal.RefCell.out_eq, a0, a2, a3, a4, a5, a6]
  · rw [(h c).2.1, Cert.ReferenceIdeal.Read.val_main_v38_eq, Cert.ReferenceIdeal.RefCell.cell_eq, a0, a1, a2, a3, a4, a5, a6]
  · rw [(h c).2.2.1, Cert.ReferenceIdeal.Read.val_main_v40_eq, Cert.ReferenceIdeal.RefCell.hid_eq, a0, a1, a2, a3, a4, a5, a6]

theorem claim : Cert.Claim := ⟨Cert.Kernel.Gen.facts, Cert.KernelIdeal.Gen.facts, Cert.ReferenceIdeal.Gen.facts, Cert.Pre_finite_inputs.Gen.facts,
  frame_kernel, frame_kernel_ideal, frame_reference, preserves, algebraic⟩

end Cert.Proof

end
